-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S2048x2048 .f32) (main_arg2 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩

abbrev nBuf : Space → Nat
  | .hbm => 7
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048x2048, .bf16⟩
  | .hbm, ⟨5, _⟩ => ⟨S1x2048, .f32⟩
  | .hbm, ⟨6, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S2048x2048_S2048x2048_1_0 : S2048x2048.Transposes [1, 0] S2048x2048
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .f32 = 32 ∨ (Rect.block (s := S8192x2048) S512x2048.size (cc0_transform_3 i) (hinb0_3 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S8192x2048_S2048x2048_S8192x2048_1_1_0_0_n_n_wf : DotDims.WF S8192x2048 S2048x2048 S8192x2048 [1] [1] [0] [0] [] []

variable [Facts₀]

def dot_S8192x2048_S2048x2048_S8192x2048_1_1_0_0_n_n : DotDims S8192x2048 S2048x2048 S8192x2048 where
  lhsContracting := [1]
  rhsContracting := [1]
  lhsNonContracting := [0]
  rhsNonContracting := [0]
  lhsBatch := []
  rhsBatch := []
  wf := dot_S8192x2048_S2048x2048_S8192x2048_1_1_0_0_n_n_wf

class Facts : Prop extends Facts₀ where

variable [Facts]
-- ==== Proof.Affine.lean ====
/-
  The affine map both programs compute, as one function of the three argument arrays.

  For an input x of shape [8192, 2048], a weight matrix w of shape [2048, 2048] held output-major (w[o, k] is the weight
  from input feature k to output feature o) and a bias b of length 2048, the result at row r and column o is
      (Σ_k x[r, k] · w[o, k]) + b[o]
  on the extended reals. The sum runs over the 2048 input features in their natural order on both sides, so nothing
  about the order or grouping of the sum, and no finiteness of the entries, is ever needed.
-/
import Idealize.ShloMosaic.PureOps.Ideal
import Idealize.ShloMosaic.Lib.ValueIdx

noncomputable section

namespace Cert.Affine

open Idealize.ShloMosaic Idealize.ShloMosaic.ValueIdx

/-- `x · wᵀ + b`, entry by entry: row `i 0` of `x` against row `i 1` of `w`, plus entry `i 1` of `b`. -/
def affine (x : FVec Ideal ⟨2, ![8192, 2048]⟩ .f32) (w : FVec Ideal ⟨2, ![2048, 2048]⟩ .f32)
    (b : FVec Ideal ⟨1, ![2048]⟩ .f32) : FVec Ideal ⟨2, ![8192, 2048]⟩ .f32 :=
  fun i => (∑ k : Fin 2048, x (ix2 (i 0) k) * w (ix2 (i 1) k)) + b (ix1 (i 1))

end Cert.Affine

end
-- ==== Proof.ReferenceAffine.lean ====
/-
  The reference computes the affine map.

  Its four host operations are: the product of x with w contracting the second axis of both (entry (r, o) is the sum
  over k of x[r, k] · w[o, k]); the bias laid out as a [1, 2048] row; that row repeated down the 8192 rows; and the
  entrywise sum of the two. Read at an index (r, o) this is (Σ_k x[r, k] · w[o, k]) + b[o].
-/
import proofs.«152511_j21251498180719_2_alg».proof.Proof.Gen.ReferenceIdeal.Read
import proofs.«152511_j21251498180719_2_alg».proof.Proof.Affine

noncomputable section

namespace Cert.ReferenceAffine

open Idealize.ShloMosaic Idealize.ShloMosaic.ValueIdx Cert.ReferenceIdeal Cert.Affine

/-- The reference's last stage, at the ideal values, is the affine map of its three arguments. -/
theorem reference_eq (x : FVec Ideal S8192x2048 .f32) (w : FVec Ideal S2048x2048 .f32) (b : FVec Ideal S2048 .f32) :
    Read.val_main_v3 (F := Ideal) x w b = affine x w b := by
  funext i
  have el : ∀ k : Fin 2048, Read.lidx_main_v0 i k = ix2 (i 0) k := fun k => funext fun a => Fin.ext (by
    match a with
    | ⟨0, _⟩ => rfl
    | ⟨1, _⟩ => rfl)
  have er : ∀ k : Fin 2048, Read.ridx_main_v0 i k = ix2 (i 1) k := fun k => funext fun a => Fin.ext (by
    match a with
    | ⟨0, _⟩ => rfl
    | ⟨1, _⟩ => rfl)
  have eb : Read.idx_main_v1 (Read.idx_main_v2 i) = ix1 (i 1) := funext fun a => Fin.ext (by
    match a with
    | ⟨0, _⟩ => rfl)
  rw [Read.val_main_v3_apply, Read.val_main_v0_apply, Read.val_main_v2_apply, Read.val_main_v1_apply]
  simp only [el, er, eb]
  rfl

end Cert.ReferenceAffine

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.BlockProduct.lean ====
/-
  What the kernel body computes on one block, entry by entry.

  The body loads a [512, 2048] block of x, the whole [2048, 2048] matrix it is handed (the weights, already
  transposed: row k, column o holds the weight from input feature k to output feature o) and the bias as a
  [1, 2048] row. It multiplies the block by the matrix into a zero accumulator and adds the bias row to every row
  of the product. A change of float format is the identity on extended reals, so the entry at row p and column o is
      (Σ_k block[p, k] · matrix[k, o]) + row[0, o].
-/
import proofs.«152511_j21251498180719_2_alg».proof.Proof.Gen.KernelIdeal.Skeleton
import proofs.«152511_j21251498180719_2_alg».proof.Proof.LibMatmulSum
import Idealize.ShloMosaic.Lib.Pipeline.Value
import Idealize.ShloMosaic.Lib.ValueIdx
import Idealize.ShloMosaic.PureOps.Ideal.Laws

noncomputable section

namespace Cert.BlockProduct

open Idealize.ShloMosaic Idealize.ShloMosaic.ValueIdx Cert.KernelIdeal Cert.KernelIdeal.Gen

/-- The product's dimension record: the output's row is the left operand's row. -/
theorem lhs_row (i : S512x2048.Idx) (q : dot_S512x2048_S2048x2048_S512x2048_1_0_0_1_n_n.contr.Idx) :
    (dot_S512x2048_S2048x2048_S512x2048_1_0_0_1_n_n.lhsIdx i q 0).val = (i 0).val := by
  unfold DotDims.lhsIdx
  rw [dif_neg (show ¬(0 : Fin S512x2048.rank) ∈ dot_S512x2048_S2048x2048_S512x2048_1_0_0_1_n_n.lhsBatch by decide),
    dif_pos (show (0 : Fin S512x2048.rank) ∈ dot_S512x2048_S2048x2048_S512x2048_1_0_0_1_n_n.lhsNonContracting by decide)]
  rfl

/-- The left operand's column is the summation index. -/
theorem lhs_col (i : S512x2048.Idx) (q : dot_S512x2048_S2048x2048_S512x2048_1_0_0_1_n_n.contr.Idx) :
    (dot_S512x2048_S2048x2048_S512x2048_1_0_0_1_n_n.lhsIdx i q 1).val = (q ⟨0, by decide⟩).val :=
  dot_S512x2048_S2048x2048_S512x2048_1_0_0_1_n_n.lhsIdx_val_of_single rfl i q

/-- The right operand's row is the summation index. -/
theorem rhs_row (i : S512x2048.Idx) (q : dot_S512x2048_S2048x2048_S512x2048_1_0_0_1_n_n.contr.Idx) :
    (dot_S512x2048_S2048x2048_S512x2048_1_0_0_1_n_n.rhsIdx i q 0).val = (q ⟨0, by decide⟩).val :=
  dot_S512x2048_S2048x2048_S512x2048_1_0_0_1_n_n.rhsIdx_val_of_single rfl i q

/-- The output's column is the right operand's column. -/
theorem rhs_col (i : S512x2048.Idx) (q : dot_S512x2048_S2048x2048_S512x2048_1_0_0_1_n_n.contr.Idx) :
    (dot_S512x2048_S2048x2048_S512x2048_1_0_0_1_n_n.rhsIdx i q 1).val = (i 1).val := by
  unfold DotDims.rhsIdx
  rw [dif_neg (show ¬(1 : Fin S2048x2048.rank) ∈ dot_S512x2048_S2048x2048_S512x2048_1_0_0_1_n_n.rhsBatch by decide),
    dif_pos (show (1 : Fin S2048x2048.rank) ∈ dot_S512x2048_S2048x2048_S512x2048_1_0_0_1_n_n.rhsNonContracting by decide)]
  rfl

/-- The block times the matrix, into a zero accumulator, at entry (p, o): the sum over k of block[p, k] · matrix[k, o]. -/
theorem product_apply (x : FVec Ideal S512x2048 .bf16) (y : FVec Ideal S2048x2048 .bf16) (p : Fin 512) (o : Fin 2048) :
    matmul dot_S512x2048_S2048x2048_S512x2048_1_0_0_1_n_n none x y (constant (F := Ideal) S512x2048 .f32 0x00000000#32) (ix2 p o)
      = ∑ k : Fin 2048, x (ix2 p k) * y (ix2 k o) :=
  Cert.GraphConv.matmul_zero_sum dot_S512x2048_S2048x2048_S512x2048_1_0_0_1_n_n none rfl rfl lhs_row lhs_col rhs_row rhs_col
    x y (ix2 p o)

/-- The bias row repeated down the block's rows, at entry (p, o): the row's entry o. -/
theorem bias_rows_apply (r : FVec Ideal S1x2048 .f32) (p : Fin 512) (o : Fin 2048) :
    broadcastTo S512x2048 r broadcasts_S1x2048_S512x2048 (ix2 p o) = r (ix2 0 o) :=
  broadcastTo_apply r broadcasts_S1x2048_S512x2048 (ix2 p o) (ix2 0 o) (fun a => match a with
    | ⟨0, _⟩ => by show (0 : Nat) = if (1 : Nat) = 1 then 0 else _; rw [if_pos rfl]
    | ⟨1, _⟩ => by show o.val = if (2048 : Nat) = 1 then 0 else o.val; rw [if_neg (by decide)])

/-- The body's stored value at entry (p, o) of the block. -/
theorem payload_apply (x0 : Vec Ideal S512x2048 .f32) (x1 : Vec Ideal S2048x2048 .bf16) (x2 : Vec Ideal S1x2048 .f32)
    (p : Fin 512) (o : Fin 2048) :
    k0_pay1 (F := Ideal) x0 x1 x2 (ix2 p o) = (∑ k : Fin 2048, x0 (ix2 p k) * x1 (ix2 k o)) + x2 (ix2 0 o) := by
  unfold k0_pay1
  rw [shapeCast_self, shapeCast_self]
  refine (addf_apply _ _ _).trans ?_
  rw [product_apply, bias_rows_apply]
  rfl

end Cert.BlockProduct

end
-- ==== Proof.HostLayout.lean ====
/-
  What the two re-laid arrays hold when the kernel is launched.

  Before the launch the host transposes the weight matrix and changes its float format, and lays the bias out as a
  [1, 2048] row. A change of float format is the identity on extended reals, so the matrix the kernel is handed has
  entry (k, o) equal to weights[o, k], and the row's entry (0, o) is bias[o].
-/
import proofs.«152511_j21251498180719_2_alg».proof.Proof.Gen.KernelIdeal.Frame
import Idealize.ShloMosaic.Lib.StableHlo.Run
import Idealize.ShloMosaic.Lib.Pipeline.Value
import Idealize.ShloMosaic.Lib.ValueIdx

noncomputable section

namespace Cert.HostLayout

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- The matrix handed to the kernel is the weight matrix transposed: entry (k, o) is weights[o, k]. -/
theorem matrix_apply (c : Dev nD) (k o : Fin 2048) :
    (V m c main_v1 : S2048x2048.Idx → EReal) (ix2 k o) = (m ((c : Thread nD τ).loc main_arg1) : S2048x2048.Idx → EReal) (ix2 o k) := by
  have e : (V m c main_v1 : S2048x2048.Idx → EReal)
      = truncf (F := Ideal) .bf16 (transpose S2048x2048 [1, 0] (m ((c : Thread nD τ).loc main_arg1) : FVec Ideal S2048x2048 .f32)
          transposes_S2048x2048_S2048x2048_1_0) bitsLt_bf16_f32 := by
    dsimp only [Gen.V, Gen.hostOps0]; after_results
  rw [e]
  show transpose S2048x2048 [1, 0] (m ((c : Thread nD τ).loc main_arg1) : FVec Ideal S2048x2048 .f32)
      transposes_S2048x2048_S2048x2048_1_0 (ix2 k o) = _
  exact transpose_apply [1, 0] _ transposes_S2048x2048_S2048x2048_1_0 (ix2 k o) (ix2 o k) (fun b => match b with
    | ⟨0, _⟩ => rfl
    | ⟨1, _⟩ => rfl)

/-- The row handed to the kernel is the bias: entry (0, o) is bias[o]. -/
theorem row_apply (c : Dev nD) (o : Fin 2048) :
    (V m c main_v2 : S1x2048.Idx → EReal) (ix2 0 o) = (m ((c : Thread nD τ).loc main_arg2) : S2048.Idx → EReal) (ix1 o) := by
  have e : (V m c main_v2 : S1x2048.Idx → EReal)
      = shapeCast S1x2048 (m ((c : Thread nD τ).loc main_arg2) : FVec Ideal S2048 .f32) shapeCasts_S2048_S1x2048 := by
    dsimp only [Gen.V, Gen.hostOps0]; after_results; rfl
  rw [e]
  refine (shapeCast_addUnit_apply ![2048] _ shapeCasts_S2048_S1x2048 (ix2 0 o)).trans ?_
  refine congrArg _ (funext fun a => ?_)
  match a with
  | ⟨0, _⟩ => rfl

end Cert.HostLayout

end
-- ==== Proof.KernelAffine.lean ====
/-
  The kernel computes the affine map.

  The grid has 16 points. At point t the kernel is handed rows 512·t … 512·t + 511 of x, the whole transposed weight
  matrix and the whole bias row, and writes rows 512·t … 512·t + 511 of the result. By the entrywise reading of the
  body (the block's product with the matrix plus the bias row) and of the two re-laid arrays (matrix[k, o] =
  weights[o, k], row[0, o] = bias[o]), what point t writes is exactly block t of the affine map of the three
  arguments. The 16 blocks of 512 rows tile the 8192 rows, so after the run the whole result array is the affine map.
-/
import proofs.«152511_j21251498180719_2_alg».proof.Proof.Gen.KernelIdeal.Value
import proofs.«152511_j21251498180719_2_alg».proof.Proof.Affine
import proofs.«152511_j21251498180719_2_alg».proof.Proof.BlockProduct
import proofs.«152511_j21251498180719_2_alg».proof.Proof.HostLayout

set_option maxRecDepth 16384

noncomputable section

namespace Cert.KernelAffine

open Idealize.ShloMosaic Idealize.ShloMosaic.ValueIdx Idealize.ShloMosaic.TcCoe Idealize.SL.Sem
open Idealize.ShloMosaic.Pipeline (Dat)
open Cert.KernelIdeal Cert.KernelIdeal.Gen Cert.Affine

variable (m : (ℓ : Loc nD τ sig) → Buf (Elt Ideal) ℓ) (ρ : Dev nD → PrngReg)

/-- The body's rectangles start at the origin. -/
theorem origin : (![0, 0] : Fin 2 → Nat) = fun _ => 0 := funext fun a => by fin_cases a <;> rfl

/-- One entry of one block. If a [512, 2048] block holds rows of `X` starting so that its row `j 0` is row `r` of
    `X`, the matrix is `W` transposed and the row is `B`, then the body's value at `j` is the affine map at (r, j 1). -/
theorem block_entry (x0 : Vec Ideal S512x2048 .f32) (x1 : Vec Ideal S2048x2048 .bf16) (x2 : Vec Ideal S1x2048 .f32)
    (X : FVec Ideal S8192x2048 .f32) (W : FVec Ideal S2048x2048 .f32) (B : FVec Ideal S2048 .f32)
    (r : Fin 8192) (j : S512x2048.Idx)
    (h0 : ∀ k : Fin 2048, x0 (ix2 (j 0) k) = X (ix2 r k))
    (h1 : ∀ k : Fin 2048, x1 (ix2 k (j 1)) = W (ix2 (j 1) k))
    (h2 : x2 (ix2 0 (j 1)) = B (ix1 (j 1))) :
    k0_pay1 (F := Ideal) x0 x1 x2 j = affine X W B (ix2 r (j 1)) := by
  refine ((congrArg (k0_pay1 (F := Ideal) x0 x1 x2) (eq_ix2 j)).trans
    (Cert.BlockProduct.payload_apply x0 x1 x2 (j 0) (j 1))).trans ?_
  show (∑ k : Fin 2048, x0 (ix2 (j 0) k) * x1 (ix2 k (j 1))) + x2 (ix2 0 (j 1))
      = (∑ k : Fin 2048, X (ix2 r k) * W (ix2 (j 1) k)) + B (ix1 (j 1))
  rw [h2]
  congr 1
  exact Finset.sum_congr rfl fun k _ => by rw [h0 k, h1 k]

/-- The printed index maps over the 16 grid points: the blocks of x and of the result at point t are block row t;
    the matrix and the bias row are always block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT t WRITES BACK is block t of the affine map of the three arguments. -/
theorem flushed_eq (c : Dev nD) (t : Fin cfg0.N) :
    (dats m 0 c).flushed 3 t = ((cfg0.win 3).blk t).view.read (Elt Ideal)
      (affine (m ((c : Thread nD τ).loc main_arg0)) (m ((c : Thread nD τ).loc main_arg1)) (m ((c : Thread nD τ).loc main_arg2))) := by
  rw [Cert.KernelIdeal.Value.flushed3]
  unfold out0_3
  rw [View.canon_unit_zero origin]
  simp only [View.ld_unit_zero (S := S512x2048) origin, View.ld_unit_zero (S := S2048x2048) origin,
    View.ld_unit_zero (S := S1x2048) origin]
  obtain ⟨e00, e01, e10, e11, e20, e21, e30, e31⟩ := index_facts t
  have ht : t.val < 16 := Nat.lt_of_lt_of_eq t.isLt N_0
  funext j
  have hj0 : (j 0).val < 512 := (j 0).isLt
  have hj1 : (j 1).val < 2048 := (j 1).isLt
  have hemb : ((cfg0.win 3).blk t).view.emb j = ix2 (⟨t.val * 512 + (j 0).val, by omega⟩ : Fin 8192) (j 1) := by
    funext a; apply Fin.ext
    match a with
    | ⟨0, _⟩ => show win0_3.index t (0 : Fin 2) * 512 + 1 * (j 0).val = t.val * 512 + (j 0).val; rw [e30]; omega
    | ⟨1, _⟩ => show win0_3.index t (1 : Fin 2) * 2048 + 1 * (j 1).val = (j 1).val; rw [e31]; omega
  show k0_pay1 (F := Ideal) (iblk m c 0 t) (iblk m c 1 t) (iblk m c 2 t) j
      = affine (m ((c : Thread nD τ).loc main_arg0)) (m ((c : Thread nD τ).loc main_arg1)) (m ((c : Thread nD τ).loc main_arg2))
          (((cfg0.win 3).blk t).view.emb j)
  rw [hemb]
  refine block_entry (iblk m c 0 t) (iblk m c 1 t) (iblk m c 2 t) _ _ _ _ j ?_ ?_ ?_
  · intro k
    show V m c main_arg0 (((cfg0.win 0).blk t).view.emb (ix2 (j 0) k)) = _
    rw [V_main_arg0]
    refine congrArg _ (funext fun a => Fin.ext ?_)
    match a with
    | ⟨0, _⟩ => show win0_0.index t (0 : Fin 2) * 512 + 1 * (j 0).val = t.val * 512 + (j 0).val; rw [e00]; omega
    | ⟨1, _⟩ => show win0_0.index t (1 : Fin 2) * 2048 + 1 * k.val = k.val; rw [e01]; omega
  · intro k
    show V m c main_v1 (((cfg0.win 1).blk t).view.emb (ix2 k (j 1))) = _
    have hk : ((cfg0.win 1).blk t).view.emb (ix2 k (j 1)) = ix2 k (j 1) := by
      funext a; apply Fin.ext
      match a with
      | ⟨0, _⟩ => show win0_1.index t (0 : Fin 2) * 2048 + 1 * k.val = k.val; rw [e10]; omega
      | ⟨1, _⟩ => show win0_1.index t (1 : Fin 2) * 2048 + 1 * (j 1).val = (j 1).val; rw [e11]; omega
    rw [hk]
    exact Cert.HostLayout.matrix_apply m c k (j 1)
  · show V m c main_v2 (((cfg0.win 2).blk t).view.emb (ix2 0 (j 1))) = _
    have hk : ((cfg0.win 2).blk t).view.emb (ix2 (0 : Fin 1) (j 1)) = ix2 (0 : Fin 1) (j 1) := by
      funext a; apply Fin.ext
      match a with
      | ⟨0, _⟩ => show win0_2.index t (0 : Fin 2) * 1 + 1 * 0 = 0; rw [e20]
      | ⟨1, _⟩ => show win0_2.index t (1 : Fin 2) * 2048 + 1 * (j 1).val = (j 1).val; rw [e21]; omega
    rw [hk]
    exact Cert.HostLayout.row_apply m c (j 1)

/-- An index of the result array is in point t's block iff each coordinate is in the block's range on its axis. -/
theorem mem_block (t : Fin cfg0.N) (i : S8192x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v3).slice (win0_3.rect t)).set ↔ _
  rw [View.set_slice_whole, Rect.mem_set_unit]
  exact Iff.rfl

/-- Every index of the result array is in some point's block: row r is in the block of point r / 512. -/
theorem covered (i : S8192x2048.Idx) :
    ∃ t : Fin cfg0.N, (cfg0.win 3).flush t = true ∧ i ∈ ((cfg0.win 3).blk t).view.set := by
  have hi0 : (i 0).val < 8192 := (i 0).isLt
  have hi1 : (i 1).val < 2048 := (i 1).isLt
  have hN : cfg0.N = 16 := N_0
  have hq : (i 0).val / 512 < cfg0.N := by rw [hN]; omega
  obtain ⟨_, _, _, _, _, _, e30, e31⟩ := index_facts ⟨(i 0).val / 512, hq⟩
  refine ⟨⟨(i 0).val / 512, hq⟩, flush0_3 _, ?_⟩
  rw [mem_block]
  intro a
  match a with
  | ⟨0, _⟩ =>
    show win0_3.index ⟨(i 0).val / 512, hq⟩ (0 : Fin 2) * 512 ≤ (i 0).val
      ∧ (i 0).val < win0_3.index ⟨(i 0).val / 512, hq⟩ (0 : Fin 2) * 512 + 512
    rw [e30]
    show (i 0).val / 512 * 512 ≤ (i 0).val ∧ (i 0).val < (i 0).val / 512 * 512 + 512
    omega
  | ⟨1, _⟩ =>
    show win0_3.index ⟨(i 0).val / 512, hq⟩ (1 : Fin 2) * 2048 ≤ (i 1).val
      ∧ (i 1).val < win0_3.index ⟨(i 0).val / 512, hq⟩ (1 : Fin 2) * 2048 + 2048
    rw [e31]
    omega

/-- THE RESULT ARRAY after the run is the affine map of the three arguments. -/
theorem final (c : Dev nD) : (dats m 0 c).arrAt 3 cfg0.N
    = affine (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run: it terminates with the result array at the affine map of its arguments, the arguments unchanged. -/
theorem run : θ_run defs (onTc (τ := τ) (main (F := Ideal))) ⟨m, fun _ => 0, ρ⟩ fun r => ∀ c : Dev nD,
      r.2.mem ((c : Thread nD τ).loc main_v3)
        = affine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelAffine

end
-- ==== Proof.lean ====
/-
  A dense layer's kernel against its reference: out[r, o] = (Σ_k x[r, k] · weights[o, k]) + bias[o].

  x is [8192, 2048], weights is [2048, 2048] held output-major, bias has length 2048. The reference contracts the
  second axis of x with the second axis of weights and adds the bias along the rows. The kernel first transposes the
  weights (and changes their float format, which is the identity on extended reals), lays the bias out as a
  [1, 2048] row, and then, for each of 16 blocks of 512 rows of x, multiplies the block by the transposed matrix
  into a zero accumulator and adds the row. Since transposed[k, o] = weights[o, k], every entry of every block is
  the same sum over k in the same order plus the same bias entry, and the 16 blocks tile the 8192 rows. So both
  programs end with the one array `Cert.Affine.affine x weights bias`; no algebraic law beyond this reading is used,
  and the finiteness of the inputs is never opened.

  The modules: `Affine` states the map; `ReferenceAffine` reads the reference's four host operations at an index;
  `BlockProduct` reads the kernel body at an entry of a block; `HostLayout` reads the transposed matrix and the bias
  row as the kernel finds them; `KernelAffine` puts the 16 blocks together into the whole result array.
-/
import proofs.«152511_j21251498180719_2_alg».proof.Defs
import proofs.«152511_j21251498180719_2_alg».proof.Proof.Gen.Kernel
import proofs.«152511_j21251498180719_2_alg».proof.Proof.Gen.Kernel.Frame
import proofs.«152511_j21251498180719_2_alg».proof.Proof.Gen.KernelIdeal
import proofs.«152511_j21251498180719_2_alg».proof.Proof.Gen.KernelIdeal.Frame
import proofs.«152511_j21251498180719_2_alg».proof.Proof.Gen.KernelIdeal.Value
import proofs.«152511_j21251498180719_2_alg».proof.Proof.Gen.ReferenceIdeal
import proofs.«152511_j21251498180719_2_alg».proof.Proof.Gen.ReferenceIdeal.Run
import proofs.«152511_j21251498180719_2_alg».proof.Proof.Gen.ReferenceIdeal.Read
import proofs.«152511_j21251498180719_2_alg».proof.Proof.Gen.Pre_finite_inputs
import proofs.«152511_j21251498180719_2_alg».proof.Proof.Affine
import proofs.«152511_j21251498180719_2_alg».proof.Proof.ReferenceAffine
import proofs.«152511_j21251498180719_2_alg».proof.Proof.KernelAffine

noncomputable section

namespace Cert.Proof

open Idealize.ShloMosaic Idealize.ShloMosaic.TcCoe Idealize.SL.Sem

/-- The kernel as printed runs to the end and leaves its three arguments as they were. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference is four host operations in a row: it runs to the end, and none of them writes an argument. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel at the ideal values rewrote no operation, so there is nothing to preserve. -/
theorem preserves : Cert.preserves_Kernel_KernelIdeal := trivial

/-- Both programs, from memories that agree on x, weights and bias, end with the result array at the affine map
    `(Σ_k x[r, k] · weights[o, k]) + bias[o]` of those arguments. -/
theorem algebraic : Cert.algebraic_KernelIdeal_ReferenceIdeal := by
  intro m ρ m' ρ' _ hagree
  refine ⟨fun c => Cert.Affine.affine (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelAffine.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v3_eq, Cert.ReferenceAffine.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
